-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S_ : Shape := ⟨0, ![]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel

variable [Facts]

def fn {F : FTy → Type} [FloatOps F] (main_arg0 : FVec F S4194304x16 .f32) : IVec S_ 1 :=
  let main_v0 : FVec F S4194304x16 .f32 := Host.absf main_arg0
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  main_v3
-- ==== Kernel.lean ====
abbrev S4194304x16 : Shape := ⟨2, ![4194304, 16]⟩
abbrev S128x8 : Shape := ⟨2, ![128, 8]⟩
abbrev S8x128 : Shape := ⟨2, ![8, 128]⟩
abbrev S524288x128 : Shape := ⟨2, ![524288, 128]⟩
abbrev S8192x128 : Shape := ⟨2, ![8192, 128]⟩
abbrev S8192x8 : Shape := ⟨2, ![8192, 8]⟩

abbrev nBuf : Space → Nat
  | .hbm => 6
  | .vmem => 6
  | .smem => 0
  | _ => 0

abbrev bufTy : (tb : Table) → Fin (tcTables nBuf tb) → BufTy
  | .hbm, ⟨0, _⟩ => ⟨S4194304x16, .f32⟩
  | .hbm, ⟨1, _⟩ => ⟨S128x8, .f32⟩
  | .hbm, ⟨2, _⟩ => ⟨S8x128, .f32⟩
  | .hbm, ⟨3, _⟩ => ⟨S524288x128, .f32⟩
  | .hbm, ⟨4, _⟩ => ⟨S524288x128, .f32⟩
  | .hbm, ⟨5, _⟩ => ⟨S4194304x16, .f32⟩
  | .local _ .vmem, ⟨0, _⟩ => ⟨S8192x128, .f32⟩
  | .local _ .vmem, ⟨1, _⟩ => ⟨S8192x128, .f32⟩
  | .local _ .vmem, ⟨2, _⟩ => ⟨S128x8, .f32⟩
  | .local _ .vmem, ⟨3, _⟩ => ⟨S8x128, .f32⟩
  | .local _ .vmem, ⟨4, _⟩ => ⟨S8192x128, .f32⟩
  | .local _ .vmem, ⟨5, _⟩ => ⟨S8192x128, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4194304x16_S524288x128 : S4194304x16.ShapeCasts S524288x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  shapeCasts_S524288x128_S4194304x16 : S524288x128.ShapeCasts S4194304x16
  dot_S8192x128_S128x8_S8192x8_1_0_0_1_n_n_wf : DotDims.WF S8192x128 S128x8 S8192x8 [1] [0] [0] [1] [] []
  dot_S8192x8_S8x128_S8192x128_1_0_0_1_n_n_wf : DotDims.WF S8192x8 S8x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S524288x128.size a
  hwx0_3 : ∀ i : grid0.Coords, EltTy.bits .f32 = 32 ∨ (Rect.block (s := S524288x128) S8192x128.size (cc0_transform_3 i) (hinb0_3 i)).WholeWords (EltTy.packing .f32)

variable [Facts₀]

def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf
def dot_S8192x8_S8x128_S8192x128_1_0_0_1_n_n : DotDims S8192x8 S8x128 S8192x128 where
  lhsContracting := [1]
  rhsContracting := [0]
  lhsNonContracting := [0]
  rhsNonContracting := [1]
  lhsBatch := []
  rhsBatch := []
  wf := dot_S8192x8_S8x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x16 : Shape := ⟨2, ![4194304, 16]⟩
abbrev S4194304x1 : Shape := ⟨2, ![4194304, 1]⟩

abbrev nBuf : Space → Nat
  | .hbm => 4
  | .vmem => 0
  | .smem => 0
  | _ => 0

abbrev bufTy : (tb : Table) → Fin (tcTables nBuf tb) → BufTy
  | .hbm, ⟨0, _⟩ => ⟨S4194304x16, .f32⟩
  | .hbm, ⟨1, _⟩ => ⟨S4194304x1, .f32⟩
  | .hbm, ⟨2, _⟩ => ⟨S4194304x1, .f32⟩
  | .hbm, ⟨3, _⟩ => ⟨S4194304x16, .f32⟩
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  slices_S4194304x16_S4194304x1_0_0 : S4194304x16.Slices ![0, 0] S4194304x1
  bcast_S4194304x1_S4194304x16_0_1 : S4194304x1.BroadcastsInDim S4194304x16 (![0, 1] : Fin 2 → Fin S4194304x16.rank)

variable [Facts₀]

class Facts : Prop extends Facts₀ where

variable [Facts]
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibOneHot.lean ====
/-
  Sums against a vector of zeros with a single one, on the extended reals: the sum keeps the term the one stands at.
  This is what a matrix product with a 0/1 selection matrix (one one per column, or per row) computes entry by entry.
  No finiteness is needed, since `a · 0 = 0 · a = 0` and `a · 1 = 1 · a = a` for every extended real `a`, the
  infinities included.
-/
import Mathlib.Data.EReal.Operations
import Mathlib.Algebra.BigOperators.Fin

open scoped BigOperators

noncomputable section

namespace Cert.LibOneHot

/-- A finite sum of products whose second factors are `1` at one position and `0` at all others is the first
    factor at that position. -/
theorem sum_mul_single {n : Nat} (f w : Fin n → EReal) (j0 : Fin n)
    (hw : ∀ j : Fin n, w j = if j.val = j0.val then 1 else 0) : ∑ j, f j * w j = f j0 := by
  rw [Finset.sum_eq_single j0]
  · rw [hw, if_pos rfl, mul_one]
  · intro j _ hj
    rw [hw, if_neg (fun h => hj (Fin.ext h)), mul_zero]
  · intro h
    exact absurd (Finset.mem_univ _) h

/-- The same with the 0/1 factors on the left. -/
theorem sum_single_mul {n : Nat} (w f : Fin n → EReal) (j0 : Fin n)
    (hw : ∀ j : Fin n, w j = if j.val = j0.val then 1 else 0) : ∑ j, w j * f j = f j0 := by
  rw [Finset.sum_eq_single j0]
  · rw [hw, if_pos rfl, one_mul]
  · intro j _ hj
    rw [hw, if_neg (fun h => hj (Fin.ext h)), zero_mul]
  · intro h
    exact absurd (Finset.mem_univ _) h

end Cert.LibOneHot

end
-- ==== Proof.Spec.lean ====
/-
  The mathematics of the certificate, stated away from both programs.

  The input is a matrix `x` of 4194304 rows of 16 extended reals. The result has the same shape and every entry of
  row `n` is `cos (x (n, 0))`: the cosine of the row's first entry, repeated along the row.

  One program reaches this through a packed layout: the same numbers read row-major as 524288 rows of 128, so that
  a packed row holds 8 consecutive rows of `x` and lane `c` of a packed row belongs to the row of `x` numbered
  `8 r + c / 16`, whose first entry sits at lane `16 (c / 16)`. In the packed layout the result is
  `cos (X (r, 16 (c / 16)))` at `(r, c)`. That program picks the lane `16 k` out of a packed row by a sum against a
  column of zeros with a single one, and spreads the eight cosines back over the 128 lanes by a sum against a row of
  zeros with a single one; on the extended reals such a sum keeps exactly the term the one stands at, whatever the
  other entries are, since `a · 0 = 0` and `a · 1 = a` for every extended real `a` (Proof/LibOneHot.lean).
-/
import Idealize.ShloMosaic.Lib.ValueIdx
import Idealize.ShloMosaic.Lib.Pipeline.Value
import Idealize.ShloMosaic.PureOps.Ideal.Laws

open scoped BigOperators

noncomputable section

namespace Cert.CosCol

open Idealize.ShloMosaic Idealize.ShloMosaic.ValueIdx

/-- The input's shape: one row of 16 per item. -/
abbrev Rows : Shape := ⟨2, ![4194304, 16]⟩
/-- The packed shape: the same numbers, 128 to a row. -/
abbrev Packed : Shape := ⟨2, ![524288, 128]⟩

/-- The result: at `(n, d)` the cosine of `x (n, 0)`. -/
def G (x : Rows.Idx → EReal) : Rows.Idx → EReal :=
  fun i => Ideal.cos (x (ix2 (i 0) (0 : Fin 16)))

/-- The same in the packed layout: at `(r, c)` the cosine of the packed entry at lane `16 (c / 16)` of row `r`. -/
def Gp (X : Packed.Idx → EReal) : Packed.Idx → EReal :=
  fun i => Ideal.cos (X (ix2 (i 0) (⟨16 * ((i 1).val / 16), by
    have h : (i 1).val < 128 := (i 1).isLt
    omega⟩ : Fin 128)))

/-! ## Packing and unpacking -/

/-- Reading `x` packed, taking the packed result, and unpacking it again is the result `G x`: the entry `(n, d)`
    sits at packed position `((16 n + d) / 128, (16 n + d) % 128)`, whose group's first lane is entry `(n, 0)`. -/
theorem unpack_Gp_pack (x : Rows.Idx → EReal) (h1 : Rows.ShapeCasts Packed) (h2 : Packed.ShapeCasts Rows) :
    shapeCast Rows (Gp (shapeCast Packed x h1)) h2 = G x := by
  funext i
  obtain ⟨n, d, rfl⟩ : ∃ (n : Fin 4194304) (d : Fin 16), i = ix2 n d := ⟨i 0, i 1, eq_ix2 i⟩
  have hn : n.val < 4194304 := n.isLt
  have hd : d.val < 16 := d.isLt
  -- the packed position of `(n, d)`
  rw [shapeCast_apply (Gp (shapeCast Packed x h1)) h2 (ix2 n d)
    (ix2 (⟨(n.val * 16 + d.val) / 128, by omega⟩ : Fin 524288) (⟨(n.val * 16 + d.val) % 128, by omega⟩ : Fin 128))
    (by
      rw [Shape.rowMajor_val_two, Shape.rowMajor_val_two]
      show (n.val * 16 + d.val) / 128 * 128 + (n.val * 16 + d.val) % 128 = n.val * 16 + d.val
      omega)]
  unfold Gp G
  refine congrArg Ideal.cos ?_
  -- the first lane of that group, unpacked, is `(n, 0)`
  refine shapeCast_apply x h1 _ (ix2 n (0 : Fin 16)) ?_
  rw [Shape.rowMajor_val_two, Shape.rowMajor_val_two]
  show n.val * 16 + 0 = (n.val * 16 + d.val) / 128 * 128 + 16 * ((n.val * 16 + d.val) % 128 / 16)
  omega

end Cert.CosCol

end
-- ==== Proof.Body.lean ====
/-
  What the kernel's body computes from its three blocks, entry by entry, on the extended reals.

  The body multiplies its block of 8192 packed rows by the 128 by 8 selecting matrix, takes cosines, and multiplies
  the 8192 by 8 result by the 8 by 128 spreading matrix. Each product is accumulated into zero, so an entry of it is
  the plain sum over the contracted coordinate; against a column (or a row) of zeros with a single one the sum
  keeps one term. Hence the entry at `(p, q)` is the cosine of the block's entry at lane `16 (q / 16)` of row `p`.
-/
import proofs.«101192_j65481071402760_2_alg».proof.Proof.Gen.KernelIdeal.Skeleton
import proofs.«101192_j65481071402760_2_alg».proof.Proof.LibMatmulIdx
import proofs.«101192_j65481071402760_2_alg».proof.Proof.LibOneHot
import proofs.«101192_j65481071402760_2_alg».proof.Proof.Spec

open scoped BigOperators

noncomputable section

namespace Cert.CosCol.Body

open Idealize.ShloMosaic Idealize.ShloMosaic.ValueIdx Cert.KernelIdeal Cert.KernelIdeal.Gen

/-- The body's result at `(p, q)`, for ANY second and third operand that are the selecting and the spreading
    matrix entry by entry: the cosine of the first operand at `(p, 16 (q / 16))`. -/
theorem pay_apply (v0 : Vec Ideal S8192x128 .f32) (v2 : Vec Ideal S128x8 .f32) (v5 : Vec Ideal S8x128 .f32)
    (h2 : ∀ (j : Fin 128) (k : Fin 8), v2 (ix2 j k) = if j.val = 16 * k.val then 1 else 0)
    (h5 : ∀ (k : Fin 8) (q : Fin 128), v5 (ix2 k q) = if k.val = q.val / 16 then 1 else 0)
    (p : Fin 8192) (q : Fin 128) :
    k0_pay1 (F := Ideal) v0 v2 v5 (ix2 p q)
      = Ideal.cos (v0 (ix2 p (⟨16 * (q.val / 16), by have h : q.val < 128 := q.isLt; omega⟩ : Fin 128))) := by
  have hq : q.val < 128 := q.isLt
  unfold k0_pay1
  -- the second product at (p, q): the sum over the 8 cosines of row p against column q of the spreading matrix
  refine (Cert.LibMatmulIdx.matmul_rc_apply _ (some .fp32) _ v5 p q).trans ?_
  -- column q has its one at row q / 16
  refine (Cert.LibOneHot.sum_mul_single _ (fun k => v5 (ix2 k q)) (⟨q.val / 16, by omega⟩ : Fin 8)
    (fun k => h5 k q)).trans ?_
  show Ideal.cos _ = Ideal.cos _
  refine congrArg Ideal.cos ?_
  -- the first product at (p, q / 16): the sum over the 128 lanes of row p against column q / 16 of the selecting matrix
  refine (Cert.LibMatmulIdx.matmul_rc_apply _ (some .fp32) _ v2 p (⟨q.val / 16, by omega⟩ : Fin 8)).trans ?_
  -- that column has its one at row 16 (q / 16)
  refine (Cert.LibOneHot.sum_mul_single _ (fun j => v2 (ix2 j (⟨q.val / 16, by omega⟩ : Fin 8)))
    (⟨16 * (q.val / 16), by omega⟩ : Fin 128) (fun j => h2 j _)).trans ?_
  rw [shapeCast_self]

end Cert.CosCol.Body

end
-- ==== Proof.Tables.lean ====
/-
  The two constant matrices of the kernel, read entry by entry.

  The first, 128 by 8, has a one at `(16 k, k)` for each of its 8 columns and zeros elsewhere: multiplying a packed
  row by it picks lanes 0, 16, 32, …, 112. The second, 8 by 128, has a one at `(k, c)` exactly when `c / 16 = k`:
  multiplying by it copies entry `k` of a row of 8 to the 16 lanes of group `k`. Both are printed as tables of 1024
  words in row-major order; each word is checked against its closed form by evaluating the table at all 1024
  positions, and the two words that occur are the floats one and zero.
-/
import proofs.«101192_j65481071402760_2_alg».proof.KernelIdeal
import Idealize.ShloMosaic.Lib.IdealHost
import Idealize.ShloMosaic.Lib.ValueIdx

noncomputable section

namespace Cert.CosCol.Tables

open Idealize.ShloMosaic Idealize.ShloMosaic.ValueIdx Cert.KernelIdeal

/-- The selecting table: the word at row-major position `i` is one iff its row `i / 8` is 16 times its column
    `i % 8`. -/
theorem lit0t_eq : ∀ i : Fin 1024,
    lit0t i.val = if i.val / 8 = 16 * (i.val % 8) then 0x3F800000#32 else 0x00000000#32 := by
  decide +kernel

/-- The spreading table: the word at row-major position `i` is one iff its row `i / 128` is the group
    `(i % 128) / 16` of its column. -/
theorem lit1t_eq : ∀ i : Fin 1024,
    lit1t i.val = if i.val / 128 = i.val % 128 / 16 then 0x3F800000#32 else 0x00000000#32 := by
  decide +kernel

/-- The selecting matrix at `(j, k)`, as an extended real: one iff `j = 16 k`. -/
theorem sel_apply (j : Fin 128) (k : Fin 8) :
    (FloatOps.ofBits (F := Ideal) .f32 (lit0 (S128x8.rowMajor (ix2 j k))) : EReal)
      = if j.val = 16 * k.val then 1 else 0 := by
  have hj : j.val < 128 := j.isLt
  have hk : k.val < 8 := k.isLt
  have hv : (S128x8.rowMajor (ix2 j k)).val = j.val * 8 + k.val := by
    rw [Shape.rowMajor_val_two]; rfl
  have e : lit0 (S128x8.rowMajor (ix2 j k)) = lit0t (S128x8.rowMajor (ix2 j k)).val := rfl
  rw [e, lit0t_eq (S128x8.rowMajor (ix2 j k)), hv]
  by_cases h : j.val = 16 * k.val
  · rw [if_pos (by omega), if_pos h]; exact Ideal.ofBits_one_f32
  · rw [if_neg (by omega), if_neg h]; exact Ideal.ofBits_zero_f32

/-- The spreading matrix at `(k, c)`, as an extended real: one iff `k = c / 16`. -/
theorem spread_apply (k : Fin 8) (q : Fin 128) :
    (FloatOps.ofBits (F := Ideal) .f32 (lit1 (S8x128.rowMajor (ix2 k q))) : EReal)
      = if k.val = q.val / 16 then 1 else 0 := by
  have hq : q.val < 128 := q.isLt
  have hk : k.val < 8 := k.isLt
  have hv : (S8x128.rowMajor (ix2 k q)).val = k.val * 128 + q.val := by
    rw [Shape.rowMajor_val_two]; rfl
  have e : lit1 (S8x128.rowMajor (ix2 k q)) = lit1t (S8x128.rowMajor (ix2 k q)).val := rfl
  rw [e, lit1t_eq (S8x128.rowMajor (ix2 k q)), hv]
  by_cases h : k.val = q.val / 16
  · rw [if_pos (by omega), if_pos h]; exact Ideal.ofBits_one_f32
  · rw [if_neg (by omega), if_neg h]; exact Ideal.ofBits_zero_f32

end Cert.CosCol.Tables

end
-- ==== Proof.Blocks.lean ====
/-
  From the kernel's blocks to its whole output array.

  The region finds three arrays: the packed input (the argument read row-major as 524288 rows of 128), and the two
  constant matrices. Grid point `t` works on packed rows `8192 t … 8192 t + 8191`, all 128 lanes, and on the whole of
  both constant matrices; it writes back the same rows of the output. By the body's entry-by-entry value, what point
  `t` writes back is block `t` of ONE function of the packed input: `cos` of lane `16 (c / 16)` at `(r, c)`. The 64
  blocks tile the 524288 rows, so after the last point the output array is that function.
-/
import proofs.«101192_j65481071402760_2_alg».proof.Proof.Gen.KernelIdeal.Frame
import proofs.«101192_j65481071402760_2_alg».proof.Proof.Body
import proofs.«101192_j65481071402760_2_alg».proof.Proof.Tables
import Idealize.ShloMosaic.Lib.Pipeline.Value
import Idealize.ShloMosaic.Lib.StableHlo.Run

set_option maxRecDepth 16384

noncomputable section

namespace Cert.CosCol.Blocks

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them -/

/-- The selecting matrix, written by the first line of the program. -/
theorem V_sel (c : Dev nD) :
    (V m c main_cst : S128x8.Idx → EReal) = fun i => FloatOps.ofBits (F := Ideal) .f32 (lit0 (S128x8.rowMajor i)) := by
  show StableHlo.after hostOps0 (fun b => m (c, b)) (Proc.devRef .tc main_cst) = _
  after_results
  rfl

/-- The spreading matrix, written by the second line. -/
theorem V_spread (c : Dev nD) :
    (V m c main_cst_0 : S8x128.Idx → EReal) = fun i => FloatOps.ofBits (F := Ideal) .f32 (lit1 (S8x128.rowMajor i)) := by
  show StableHlo.after hostOps0 (fun b => m (c, b)) (Proc.devRef .tc main_cst_0) = _
  after_results
  rfl

/-- The packed input: the argument read row-major at the packed shape. -/
theorem V_packed (c : Dev nD) :
    (V m c main_v0 : S524288x128.Idx → EReal)
      = shapeCast S524288x128 (m ((c : Thread nD τ).loc main_arg0)) shapeCasts_S4194304x16_S524288x128 := by
  show StableHlo.after hostOps0 (fun b => m (c, b)) (Proc.devRef .tc main_v0) = _
  after_results
  rfl

/-! ## Which rows a grid point works on -/

/-- The printed index maps, decided over the 64 grid points: the packed input's and the output's block is the
    point's own number along the rows and the only one along the lanes; both constant matrices are one block. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 63 ∧ win0_3.index t (1 : Fin 2) = 0 :=
  (by decide +kernel : ∀ t : Fin grid0.N, _)

/-- Every one of the 64 row blocks of the output is some point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-! ## What a point writes back -/

/-- What point `t` writes back is block `t` of the packed result `Gp` of the packed input. -/
theorem flushed_eq (c : Dev nD) (t : Fin cfg0.N) :
    (dats m 0 c).flushed 3 t = ((cfg0.win 3).blk t).view.read (Elt Ideal) (Gp (V m c main_v0)) := by
  show (cfg0.win 3).cut (grid0.coords t) ((dats m 0 c).after 3 t) = _
  rw [after0_3]
  unfold out0_3
  rw [View.canon_unit_zero hz]
  simp only [View.ld_unit_zero (S := S8192x128) hz, View.ld_unit_zero (S := S128x8) hz,
    View.ld_unit_zero (S := S8x128) hz]
  obtain ⟨e00, e01, e10, e11, e20, e21, e30, e31⟩ := idx_facts t
  refine funext (fun (y : S8192x128.Idx) => ?_)
  obtain ⟨p, q, rfl⟩ : ∃ (p : Fin 8192) (q : Fin 128), y = ix2 p q := ⟨y 0, y 1, eq_ix2 y⟩
  have hp : p.val < 8192 := p.isLt
  have hq : q.val < 128 := q.isLt
  show k0_pay1 (iblk m c 0 t) (iblk m c 1 t) (iblk m c 2 t) (ix2 p q)
    = Gp (V m c main_v0) (((cfg0.win 3).blk t).view.emb (ix2 p q))
  refine (Body.pay_apply (iblk m c 0 t) (iblk m c 1 t) (iblk m c 2 t) ?_ ?_ p q).trans ?_
  · -- the second block is the whole selecting matrix
    intro j k
    show V m c main_cst (((cfg0.win 1).blk t).view.emb (ix2 j k)) = _
    have he : ((cfg0.win 1).blk t).view.emb (ix2 j k) = ix2 j k := by
      funext a; apply Fin.ext
      match a with
      | ⟨0, _⟩ => show win0_1.index t (0 : Fin 2) * 128 + 1 * j.val = j.val; omega
      | ⟨1, _⟩ => show win0_1.index t (1 : Fin 2) * 8 + 1 * k.val = k.val; omega
    rw [he, V_sel]
    exact Tables.sel_apply j k
  · -- the third block is the whole spreading matrix
    intro k q'
    show V m c main_cst_0 (((cfg0.win 2).blk t).view.emb (ix2 k q')) = _
    have he : ((cfg0.win 2).blk t).view.emb (ix2 k q') = ix2 k q' := by
      funext a; apply Fin.ext
      match a with
      | ⟨0, _⟩ => show win0_2.index t (0 : Fin 2) * 8 + 1 * k.val = k.val; omega
      | ⟨1, _⟩ => show win0_2.index t (1 : Fin 2) * 128 + 1 * q'.val = q'.val; omega
    rw [he, V_spread]
    exact Tables.spread_apply k q'
  · -- the first block is the output block's rows of the packed input
    unfold Gp
    refine congrArg Ideal.cos ?_
    show V m c main_v0 (((cfg0.win 0).blk t).view.emb (ix2 p (⟨16 * (q.val / 16), _⟩ : Fin 128))) = V m c main_v0 _
    refine congrArg (V m c main_v0) ?_
    funext a; apply Fin.ext
    match a with
    | ⟨0, _⟩ =>
      show win0_0.index t (0 : Fin 2) * 8192 + 1 * p.val = win0_3.index t (0 : Fin 2) * 8192 + 1 * p.val
      omega
    | ⟨1, _⟩ =>
      show win0_0.index t (1 : Fin 2) * 128 + 1 * (16 * (q.val / 16))
        = 16 * ((win0_3.index t (1 : Fin 2) * 128 + 1 * q.val) / 16)
      omega

/-! ## The array after the last point -/

/-- An index of the output array is in point `t`'s block iff each coordinate is in the block's range. -/
theorem mem_blk (t : Fin cfg0.N) (i : S524288x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v1).slice (win0_3.rect t)).set ↔ _
  rw [View.set_slice_whole, Rect.mem_set_unit]
  exact Iff.rfl

/-- Every index is in the block of the point that works on its row: point `r / 8192`. -/
theorem cover (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  obtain ⟨t, ht⟩ := idx_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 128 ≤ (i 1).val ∧ (i 1).val < win0_3.index t (1 : Fin 2) * 128 + 128
    omega

/-- The output array after the run is the packed result of the packed input. -/
theorem final (c : Dev nD) : (dats m 0 c).arrAt 3 cfg0.N = Gp (V m c main_v0) :=
  (dats m 0 c).arrAt_eq_of_cover 3 (Gp (V m c main_v0)) (fun t _ => flushed_eq m c t) cover

end Cert.CosCol.Blocks

end
-- ==== Proof.KernelValue.lean ====
/-
  The kernel program's run, with its result named.

  After the region the output array holds the packed result of the packed input; the program's last line reads that
  array row-major back at the input's shape. Packing, taking the packed result and unpacking is the result `G` of the
  argument, so the program ends with its result array at `G` of its argument and the argument unchanged.
-/
import proofs.«101192_j65481071402760_2_alg».proof.Proof.Blocks

set_option maxRecDepth 16384

noncomputable section

namespace Cert.CosCol.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The last line's result: the output array of the region read row-major at the input's shape, which is `G` of the
    argument. -/
theorem tail_eq (c : Dev nD) :
    Pipeline.afterTail₀ cfgs (dats m) 0 (V0 m) [hostOps1] c main_v2
      = G (m ((c : Thread nD τ).loc main_arg0)) := by
  unfold Pipeline.afterTail₀
  show StableHlo.after hostOps1 _ (Proc.devRef .tc main_v2) = _
  after_results
  -- the region's output array, as the run leaves it: the packed result of the packed argument
  have hw : Pipeline.withArrays spec0 c (V0 m c) (fun w => (dats m 0 c).arrAt w cfg0.N) (Proc.devRef .tc main_v1)
      = Gp (shapeCast S524288x128 (m ((c : Thread nD τ).loc main_arg0)) shapeCasts_S4194304x16_S524288x128) :=
    (Pipeline.withArrays_arr spec0 launch0.win.arr_inj c (V0 m c) (fun w => (dats m 0 c).arrAt w cfg0.N) 3).trans
      ((Blocks.final m c).trans (congrArg Gp (Blocks.V_packed m c)))
  show shapeCast S4194304x16
      (Pipeline.withArrays spec0 c (V0 m c) (fun w => (dats m 0 c).arrAt w cfg0.N) (Proc.devRef .tc main_v1))
      shapeCasts_S524288x128_S4194304x16 = _
  rw [hw]
  exact unpack_Gp_pack _ _ _

/-- The kernel program's run: every weakly fair execution terminates with the result array at `G` of the argument
    and the argument unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans
          (W_main_arg0 m (dats m) c)⟩)
    (run_main m ρ)

end Cert.CosCol.KernelValue

end
-- ==== Proof.RefValue.lean ====
/-
  The reference, entry by entry: it cuts the first column out of the input, takes cosines, and repeats the column
  16 times along each row. At `(n, d)` that is the cosine of the input at `(n, 0)`: the result `G`.
-/
import proofs.«101192_j65481071402760_2_alg».proof.Proof.Gen.ReferenceIdeal.Read
import proofs.«101192_j65481071402760_2_alg».proof.Proof.Spec

noncomputable section

namespace Cert.CosCol.Ref

open Idealize.ShloMosaic Idealize.ShloMosaic.ValueIdx Cert.ReferenceIdeal Cert.ReferenceIdeal.Read

/-- The reference's last stage is `G` of its argument. -/
theorem ref_eq (x : (⟨S4194304x16, .f32⟩ : BufTy).Contents (Elt Ideal)) :
    val_main_v2 (F := Ideal) x = G x := by
  funext i
  rw [val_main_v2_apply, val_main_v1_apply, val_main_v0_apply]
  unfold G
  show Ideal.cos (x _) = Ideal.cos (x _)
  refine congrArg Ideal.cos (congrArg x ?_)
  funext a; apply Fin.ext
  match a with
  | ⟨0, _⟩ => rfl
  | ⟨1, _⟩ => rfl

end Cert.CosCol.Ref

end
-- ==== Proof.lean ====
/-
  The kernel and its reference compute the same array on the extended reals.

  The input `x` has 4194304 rows of 16 entries. The reference cuts out the first column, takes cosines and repeats
  the column along each row: its result at `(n, d)` is `cos (x (n, 0))`. The kernel reads `x` row-major as 524288
  packed rows of 128 lanes (8 rows of `x` to a packed row), and on each block of 8192 packed rows multiplies by a
  128 by 8 matrix of zeros with a one at `(16 k, k)`, takes cosines, and multiplies by an 8 by 128 matrix of zeros
  with a one at `(k, c)` for `c / 16 = k`; the products are exact sums, and a sum against zeros and a single one keeps
  the one term, since `a · 0 = 0` and `a · 1 = a` for every extended real. So the packed output at `(r, c)` is the
  cosine of the packed input at `(r, 16 (c / 16))`, and reading it row-major back at the input's shape gives
  `cos (x (n, 0))` at `(n, d)`. The two cosines are one function on the extended reals, so no finiteness of the input
  is used.

  The three frames: the two kernel programs' are the generated frame certificates; the reference's is its generated
  run with the result forgotten. The idealized kernel is the kernel's own text (no rewrite was applied), so that
  conjunct is trivial. The value conjunct joins the kernel program's run (Proof/KernelValue.lean, over
  Proof/Blocks.lean, Proof/Body.lean and Proof/Tables.lean) to the reference's run read entry by entry
  (Proof/RefValue.lean) at the one function `G` of Proof/Spec.lean.
-/
import proofs.«101192_j65481071402760_2_alg».proof.Defs
import proofs.«101192_j65481071402760_2_alg».proof.Proof.Gen.Kernel
import proofs.«101192_j65481071402760_2_alg».proof.Proof.Gen.Kernel.Skeleton
import proofs.«101192_j65481071402760_2_alg».proof.Proof.Gen.Kernel.Launch
import proofs.«101192_j65481071402760_2_alg».proof.Proof.Gen.Kernel.Points
import proofs.«101192_j65481071402760_2_alg».proof.Proof.Gen.Kernel.Frame
import proofs.«101192_j65481071402760_2_alg».proof.Proof.Gen.KernelIdeal
import proofs.«101192_j65481071402760_2_alg».proof.Proof.Gen.KernelIdeal.Skeleton
import proofs.«101192_j65481071402760_2_alg».proof.Proof.Gen.KernelIdeal.Launch
import proofs.«101192_j65481071402760_2_alg».proof.Proof.Gen.KernelIdeal.Points
import proofs.«101192_j65481071402760_2_alg».proof.Proof.Gen.KernelIdeal.Frame
import proofs.«101192_j65481071402760_2_alg».proof.Proof.Gen.ReferenceIdeal
import proofs.«101192_j65481071402760_2_alg».proof.Proof.Gen.Pre_finite_inputs
import proofs.«101192_j65481071402760_2_alg».proof.Proof.Gen.ReferenceIdeal.Run
import proofs.«101192_j65481071402760_2_alg».proof.Proof.Gen.ReferenceIdeal.Read
import proofs.«101192_j65481071402760_2_alg».proof.Proof.KernelValue
import proofs.«101192_j65481071402760_2_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its argument as it was. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with their result array at `G` of the argument: the kernel program by
    its run over the packed layout, the reference by its three stages read at an entry. -/
theorem algebraic : Cert.algebraic_KernelIdeal_ReferenceIdeal := by
  intro m ρ m' ρ' _ hagree
  refine ⟨fun c => Cert.CosCol.G (m ((c.tc : Thread Cert.KernelIdeal.nD Cert.KernelIdeal.τ).loc Cert.KernelIdeal.main_arg0)),
    Cert.CosCol.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.CosCol.Ref.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
